-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x3 : Shape := ⟨2, ![8192, 3]⟩
abbrev S_ : Shape := ⟨0, ![]⟩

class Facts : Prop where
  bcast_S_S8192x3 : S_.BroadcastsInDim S8192x3 (![] : Fin 0 → Fin S8192x3.rank)
  reducesTo_S8192x3_S_d0_1 : S8192x3.ReducesTo [0, 1] S_
  h_S_ : 0 < S_.numel

variable [Facts]

def fn {F : FTy → Type} [FloatOps F] (main_arg0 : FVec F S8192x3 .f32) (main_arg1 : FVec F S8192x3 .f32) : IVec S_ 1 :=
  let main_v0 : FVec F S8192x3 .f32 := Host.absf main_arg0
  let main_cst : FVec F S_ .f32 := constant S_ .f32 0x7F800000#32
  let main_v1 : FVec F S8192x3 .f32 := broadcastInDim S8192x3 ![] bcast_S_S8192x3 main_cst
  let main_v2 : IVec S8192x3 1 := cmpf .olt main_v0 main_v1
  let main_c : IVec S_ 1 := constantI S_ 1 1#1
  let main_v3 : IVec S_ 1 := (fun x v => Host.reduce IntOp.andi x v reducesTo_S8192x3_S_d0_1 h_S_) main_v2 main_c
  let main_v4 : FVec F S8192x3 .f32 := Host.absf main_arg1
  let main_cst_0 : FVec F S_ .f32 := constant S_ .f32 0x7F800000#32
  let main_v5 : FVec F S8192x3 .f32 := broadcastInDim S8192x3 ![] bcast_S_S8192x3 main_cst_0
  let main_v6 : IVec S8192x3 1 := cmpf .olt main_v4 main_v5
  let main_c_1 : IVec S_ 1 := constantI S_ 1 1#1
  let main_v7 : IVec S_ 1 := (fun x v => Host.reduce IntOp.andi x v reducesTo_S8192x3_S_d0_1 h_S_) main_v6 main_c_1
  let main_v8 : IVec S_ 1 := andi main_v3 main_v7
  main_v8
-- ==== Kernel.lean ====
abbrev S8192x3 : Shape := ⟨2, ![8192, 3]⟩
abbrev S1x1 : Shape := ⟨2, ![1, 1]⟩
abbrev S256x3 : Shape := ⟨2, ![256, 3]⟩
abbrev S1x8192 : Shape := ⟨2, ![1, 8192]⟩
abbrev S3x8192 : Shape := ⟨2, ![3, 8192]⟩
abbrev S256x1 : Shape := ⟨2, ![256, 1]⟩
abbrev S256x8192 : Shape := ⟨2, ![256, 8192]⟩
abbrev S256 : Shape := ⟨1, ![256]⟩
abbrev S1x256x1 : Shape := ⟨3, ![1, 256, 1]⟩
abbrev S1 : Shape := ⟨1, ![1]⟩
abbrev S1x1x1 : Shape := ⟨3, ![1, 1, 1]⟩
abbrev S8192 : Shape := ⟨1, ![8192]⟩
abbrev S1x1x8192 : Shape := ⟨3, ![1, 1, 8192]⟩
abbrev S_ : Shape := ⟨0, ![]⟩

abbrev nBuf : Space → Nat
  | .hbm => 4
  | .vmem => 6
  | .smem => 0
  | _ => 0

abbrev bufTy : (tb : Table) → Fin (tcTables nBuf tb) → BufTy
  | .hbm, ⟨0, _⟩ => ⟨S8192x3, .f32⟩
  | .hbm, ⟨1, _⟩ => ⟨S8192x3, .f32⟩
  | .hbm, ⟨2, _⟩ => ⟨S1x1, .f32⟩
  | .hbm, ⟨3, _⟩ => ⟨S_, .f32⟩
  | .local _ .vmem, ⟨0, _⟩ => ⟨S256x3, .f32⟩
  | .local _ .vmem, ⟨1, _⟩ => ⟨S256x3, .f32⟩
  | .local _ .vmem, ⟨2, _⟩ => ⟨S8192x3, .f32⟩
  | .local _ .vmem, ⟨3, _⟩ => ⟨S1x1, .f32⟩
  | .local _ .vmem, ⟨4, _⟩ => ⟨S1x8192, .f32⟩
  | .local _ .vmem, ⟨5, _⟩ => ⟨S1x1, .f32⟩
  | _, _ => ⟨S8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v48 : BitVec 1 := Scalar.cmpi .eq arg0 c31_i32
  let v49 : BitVec 32 := Scalar.extui v48
  let c0_i32_15 : BitVec 32 := 0#32
  let v50 : BitVec 1 := Scalar.cmpi .ne v49 c0_i32_15
  v50

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S256x3_S256x3_0_0 : ∀ a, (![0, 0] : Fin 2 → Nat) a + S256x3.size a ≤ S256x3.size a
  h_S256x3 : 0 < S256x3.numel
  inb_S8192x3_S8192x3_0_0 : ∀ a, (![0, 0] : Fin 2 → Nat) a + S8192x3.size a ≤ S8192x3.size a
  h_S8192x3 : 0 < S8192x3.numel
  transposes_S8192x3_p1_0_S3x8192 : S8192x3.Transposes [1, 0] S3x8192
  slices_S256x3_o0_0_S256x1 : S256x3.Slices ![0, 0] S256x1
  slices_S256x3_o0_1_S256x1 : S256x3.Slices ![0, 1] S256x1
  slices_S256x3_o0_2_S256x1 : S256x3.Slices ![0, 2] S256x1
  slices_S3x8192_o0_0_S1x8192 : S3x8192.Slices ![0, 0] S1x8192
  slices_S3x8192_o1_0_S1x8192 : S3x8192.Slices ![1, 0] S1x8192
  slices_S3x8192_o2_0_S1x8192 : S3x8192.Slices ![2, 0] S1x8192
  broadcasts_S256x1_S256x8192 : S256x1.Broadcasts S256x8192
  broadcasts_S1x8192_S256x8192 : S1x8192.Broadcasts S256x8192
  reduces_S256x8192_S256 : S256x8192.Reduces [1] S256
  shapeCasts_S256_S256x1 : S256.ShapeCasts S256x1
  shapeCasts_S256x1_S1x256x1 : S256x1.ShapeCasts S1x256x1
  reduces_S1x256x1_S1 : S1x256x1.Reduces [1, 2] S1
  shapeCasts_S1_S1x1x1 : S1.ShapeCasts S1x1x1
  inpos_S1x1x1_p0_0_0 : ∀ a, (![0, 0, 0] : Fin 3 → Nat) a < S1x1x1.size a
  reduces_S256x8192_S8192 : S256x8192.Reduces [0] S8192
  shapeCasts_S8192_S1x8192 : S8192.ShapeCasts S1x8192
  shapeCasts_S1x8192_S1x1x8192 : S1x8192.ShapeCasts S1x1x8192
  reduces_S1x1x8192_S1 : S1x1x8192.Reduces [1, 2] S1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x3.size a ≤ S8192x3.size a
  hwx0_0 : ∀ i : grid0.Coords, EltTy.bits .f32 = 32 ∨ (Rect.block (s := S8192x3) S256x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x3.size a ≤ S8192x3.size a
  hwx0_1 : ∀ i : grid0.Coords, EltTy.bits .f32 = 32 ∨ (Rect.block (s := S8192x3) S8192x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S256x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x3 : Shape := ⟨2, ![8192, 3]⟩
abbrev S8192x1x3 : Shape := ⟨3, ![8192, 1, 3]⟩
abbrev S1x8192x3 : Shape := ⟨3, ![1, 8192, 3]⟩
abbrev S8192x8192x3 : Shape := ⟨3, ![8192, 8192, 3]⟩
abbrev S_ : Shape := ⟨0, ![]⟩
abbrev S8192x8192 : Shape := ⟨2, ![8192, 8192]⟩
abbrev S8192 : Shape := ⟨1, ![8192]⟩

abbrev nBuf : Space → Nat
  | .hbm => 20
  | .vmem => 0
  | .smem => 0
  | _ => 0

abbrev bufTy : (tb : Table) → Fin (tcTables nBuf tb) → BufTy
  | .hbm, ⟨0, _⟩ => ⟨S8192x3, .f32⟩
  | .hbm, ⟨1, _⟩ => ⟨S8192x3, .f32⟩
  | .hbm, ⟨2, _⟩ => ⟨S8192x1x3, .f32⟩
  | .hbm, ⟨3, _⟩ => ⟨S1x8192x3, .f32⟩
  | .hbm, ⟨4, _⟩ => ⟨S8192x8192x3, .f32⟩
  | .hbm, ⟨5, _⟩ => ⟨S8192x8192x3, .f32⟩
  | .hbm, ⟨6, _⟩ => ⟨S8192x8192x3, .f32⟩
  | .hbm, ⟨7, _⟩ => ⟨S8192x8192x3, .f32⟩
  | .hbm, ⟨8, _⟩ => ⟨S_, .f32⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S8192, .f32⟩
  | .hbm, ⟨17, _⟩ => ⟨S_, .f32⟩
  | .hbm, ⟨18, _⟩ => ⟨S_, .f32⟩
  | .hbm, ⟨19, _⟩ => ⟨S_, .f32⟩
  | _, _ => ⟨S8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]

class Facts₀ : Prop where
  bcast_S8192x3_S8192x1x3_0_2 : S8192x3.BroadcastsInDim S8192x1x3 (![0, 2] : Fin 2 → Fin S8192x1x3.rank)
  bcast_S8192x3_S1x8192x3_1_2 : S8192x3.BroadcastsInDim S1x8192x3 (![1, 2] : Fin 2 → Fin S1x8192x3.rank)
  bcast_S8192x1x3_S8192x8192x3_0_1_2 : S8192x1x3.BroadcastsInDim S8192x8192x3 (![0, 1, 2] : Fin 3 → Fin S8192x8192x3.rank)
  bcast_S1x8192x3_S8192x8192x3_0_1_2 : S1x8192x3.BroadcastsInDim S8192x8192x3 (![0, 1, 2] : Fin 3 → Fin S8192x8192x3.rank)
  reducesTo_S8192x8192x3_S8192x8192_d2 : S8192x8192x3.ReducesTo [2] S8192x8192
  h_S_ : 0 < S_.numel
  reducesTo_S8192x8192_S8192_d1 : S8192x8192.ReducesTo [1] S8192
  reducesTo_S8192_S_d0 : S8192.ReducesTo [0] S_
  reducesTo_S8192x8192_S8192_d0 : S8192x8192.ReducesTo [0] S8192

variable [Facts₀]

class Facts : Prop extends Facts₀ where

variable [Facts]
-- ==== Proof.Pieces.lean ====
/-
  What the body leaves at a grid point, case by case, as the named payloads of the body's arithmetic.

  The body keeps two running values across the grid points: a row `colAcc` of 8192 entries (scratch 1x8192) and a
  single entry `rowAcc` (scratch 1x1).  At every point it replaces `colAcc` by the entrywise minimum of `colAcc`
  and the point's block of column minima, and `rowAcc` by the maximum of `rowAcc` and the largest row minimum of
  the point's block.  At the first point both are first reset (to the +infinity word and the -infinity word); at
  the last point the output entry is written: the maximum of the new `rowAcc` and the largest entry of the new
  `colAcc`.  Each statement below says so for one buffer in one case: a single whole-buffer store decides what
  the buffer holds afterwards, and the loads before it read whole buffers.
-/
import proofs.«109463_j65635690217853_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-! ## A middle point: neither the first nor the last -/

/-- The column accumulator becomes its entrywise minimum with the block's column minima. -/
theorem mid_col (c : Dev nD) (i : grid0.Coords) (arg1 : Memref sig .tc .vmem S256x3 .f32) (harg1 : arg1.IsWhole) (arg2 : Memref sig .tc .vmem S8192x3 .f32) (harg2 : arg2.IsWhole) (arg3 : Memref sig .tc .vmem S1x1 .f32) (harg3 : arg3.IsWhole) (arg4 : Memref sig .tc .vmem S1x8192 .f32) (harg4 : arg4.IsWhole) (arg5 : Memref sig .tc .vmem S1x1 .f32) (harg5 : arg5.IsWhole) (hc0 : ¬cond0_0 i) (hc1 : ¬cond0_1 i)
    (x0 : Vec F S256x3 .f32) (x1 : Vec F S8192x3 .f32) (xs0 : Vec F S1x8192 .f32) (xs1 : Vec F S1x1 .f32) :
    sout0_B_0 c i arg1 harg1 arg2 harg2 arg3 harg3 arg4 harg4 arg5 harg5 hc0 hc1 x0 x1 xs0 xs1 = k0_pay1 (k0_pay6 x0 x1) xs0 := by
  unfold sout0_B_0
  rw [View.read_writes_eq_canon _ _ _ (scover0_B_0 c i arg1 harg1 arg2 harg2 arg3 harg3 arg4 harg4 arg5 harg5 hc0 hc1 x0 x1 xs0 xs1)]
  unfold kernelRun0_B
  dsimp only
  sl_unfold_words
  rw [View.canon_unit_zero hz]
  simp only [View.readAt_eq_ld, harg1.read_unread, harg2.read_unread, harg4.read_unread,
    View.ld_unit_zero (S := S256x3) hz, View.ld_unit_zero (S := S8192x3) hz, View.ld_unit_zero (S := S1x8192) hz]

/-- The row accumulator becomes its maximum with the block's largest row minimum. -/
theorem mid_row (c : Dev nD) (i : grid0.Coords) (arg1 : Memref sig .tc .vmem S256x3 .f32) (harg1 : arg1.IsWhole) (arg2 : Memref sig .tc .vmem S8192x3 .f32) (harg2 : arg2.IsWhole) (arg3 : Memref sig .tc .vmem S1x1 .f32) (harg3 : arg3.IsWhole) (arg4 : Memref sig .tc .vmem S1x8192 .f32) (harg4 : arg4.IsWhole) (arg5 : Memref sig .tc .vmem S1x1 .f32) (harg5 : arg5.IsWhole) (hc0 : ¬cond0_0 i) (hc1 : ¬cond0_1 i)
    (x0 : Vec F S256x3 .f32) (x1 : Vec F S8192x3 .f32) (xs0 : Vec F S1x8192 .f32) (xs1 : Vec F S1x1 .f32) :
    sout0_B_1 c i arg1 harg1 arg2 harg2 arg3 harg3 arg4 harg4 arg5 harg5 hc0 hc1 x0 x1 xs0 xs1 = k0_pay7 x0 x1 xs1 := by
  unfold sout0_B_1
  rw [View.read_writes_eq_canon _ _ _ (scover0_B_1 c i arg1 harg1 arg2 harg2 arg3 harg3 arg4 harg4 arg5 harg5 hc0 hc1 x0 x1 xs0 xs1)]
  unfold kernelRun0_B
  dsimp only
  sl_unfold_words
  rw [View.canon_unit_zero hz]
  simp only [View.readAt_eq_ld, harg1.read_unread, harg2.read_unread, harg5.read_unread,
    View.ld_unit_zero (S := S256x3) hz, View.ld_unit_zero (S := S8192x3) hz, View.ld_unit_zero (S := S1x1) hz]

/-! ## The first point: both accumulators reset, then updated -/

theorem first_col (c : Dev nD) (i : grid0.Coords) (arg1 : Memref sig .tc .vmem S256x3 .f32) (harg1 : arg1.IsWhole) (arg2 : Memref sig .tc .vmem S8192x3 .f32) (harg2 : arg2.IsWhole) (arg3 : Memref sig .tc .vmem S1x1 .f32) (harg3 : arg3.IsWhole) (arg4 : Memref sig .tc .vmem S1x8192 .f32) (harg4 : arg4.IsWhole) (arg5 : Memref sig .tc .vmem S1x1 .f32) (harg5 : arg5.IsWhole) (hc0 : cond0_0 i) (hc1 : ¬cond0_1 i)
    (x0 : Vec F S256x3 .f32) (x1 : Vec F S8192x3 .f32) :
    sout0_A_0 c i arg1 harg1 arg2 harg2 arg3 harg3 arg4 harg4 arg5 harg5 hc0 hc1 x0 x1 = k0_pay1 (k0_pay6 x0 x1) k0_pay3 := by
  unfold sout0_A_0
  rw [View.read_writes_eq_canon _ _ _ (scover0_A_0 c i arg1 harg1 arg2 harg2 arg3 harg3 arg4 harg4 arg5 harg5 hc0 hc1 x0 x1)]
  unfold kernelRun0_A
  dsimp only
  sl_unfold_words
  rw [View.canon_cons_unit_zero (S := S1x8192) hz, View.readCov_unit_zero (S := S1x8192) _ hz]
  simp only [View.readAt_eq_ld, harg1.read_unread, harg2.read_unread,
    View.ld_unit_zero (S := S256x3) hz, View.ld_unit_zero (S := S8192x3) hz]

theorem first_row (c : Dev nD) (i : grid0.Coords) (arg1 : Memref sig .tc .vmem S256x3 .f32) (harg1 : arg1.IsWhole) (arg2 : Memref sig .tc .vmem S8192x3 .f32) (harg2 : arg2.IsWhole) (arg3 : Memref sig .tc .vmem S1x1 .f32) (harg3 : arg3.IsWhole) (arg4 : Memref sig .tc .vmem S1x8192 .f32) (harg4 : arg4.IsWhole) (arg5 : Memref sig .tc .vmem S1x1 .f32) (harg5 : arg5.IsWhole) (hc0 : cond0_0 i) (hc1 : ¬cond0_1 i)
    (x0 : Vec F S256x3 .f32) (x1 : Vec F S8192x3 .f32) :
    sout0_A_1 c i arg1 harg1 arg2 harg2 arg3 harg3 arg4 harg4 arg5 harg5 hc0 hc1 x0 x1 = k0_pay7 x0 x1 k0_pay4 := by
  unfold sout0_A_1
  rw [View.read_writes_eq_canon _ _ _ (scover0_A_1 c i arg1 harg1 arg2 harg2 arg3 harg3 arg4 harg4 arg5 harg5 hc0 hc1 x0 x1)]
  unfold kernelRun0_A
  dsimp only
  sl_unfold_words
  rw [View.canon_cons_unit_zero (S := S1x1) hz, View.readCov_unit_zero (S := S1x1) _ hz]
  simp only [View.readAt_eq_ld, harg1.read_unread, harg2.read_unread,
    View.ld_unit_zero (S := S256x3) hz, View.ld_unit_zero (S := S8192x3) hz]

/-! ## The last point: both accumulators updated, then the output entry written from them -/

theorem last_col (c : Dev nD) (i : grid0.Coords) (arg1 : Memref sig .tc .vmem S256x3 .f32) (harg1 : arg1.IsWhole) (arg2 : Memref sig .tc .vmem S8192x3 .f32) (harg2 : arg2.IsWhole) (arg3 : Memref sig .tc .vmem S1x1 .f32) (harg3 : arg3.IsWhole) (arg4 : Memref sig .tc .vmem S1x8192 .f32) (harg4 : arg4.IsWhole) (arg5 : Memref sig .tc .vmem S1x1 .f32) (harg5 : arg5.IsWhole) (hc0 : ¬cond0_0 i) (hc1 : cond0_1 i)
    (x0 : Vec F S256x3 .f32) (x1 : Vec F S8192x3 .f32) (xs0 : Vec F S1x8192 .f32) (xs1 : Vec F S1x1 .f32) :
    sout0_C_0 c i arg1 harg1 arg2 harg2 arg3 harg3 arg4 harg4 arg5 harg5 hc0 hc1 x0 x1 xs0 xs1 = k0_pay1 (k0_pay6 x0 x1) xs0 := by
  unfold sout0_C_0
  rw [View.read_writes_eq_canon _ _ _ (scover0_C_0 c i arg1 harg1 arg2 harg2 arg3 harg3 arg4 harg4 arg5 harg5 hc0 hc1 x0 x1 xs0 xs1)]
  unfold kernelRun0_C
  dsimp only
  sl_unfold_words
  rw [View.canon_unit_zero hz]
  simp only [View.readAt_eq_ld, harg1.read_unread, harg2.read_unread, harg4.read_unread,
    View.ld_unit_zero (S := S256x3) hz, View.ld_unit_zero (S := S8192x3) hz, View.ld_unit_zero (S := S1x8192) hz]

theorem last_row (c : Dev nD) (i : grid0.Coords) (arg1 : Memref sig .tc .vmem S256x3 .f32) (harg1 : arg1.IsWhole) (arg2 : Memref sig .tc .vmem S8192x3 .f32) (harg2 : arg2.IsWhole) (arg3 : Memref sig .tc .vmem S1x1 .f32) (harg3 : arg3.IsWhole) (arg4 : Memref sig .tc .vmem S1x8192 .f32) (harg4 : arg4.IsWhole) (arg5 : Memref sig .tc .vmem S1x1 .f32) (harg5 : arg5.IsWhole) (hc0 : ¬cond0_0 i) (hc1 : cond0_1 i)
    (x0 : Vec F S256x3 .f32) (x1 : Vec F S8192x3 .f32) (xs0 : Vec F S1x8192 .f32) (xs1 : Vec F S1x1 .f32) :
    sout0_C_1 c i arg1 harg1 arg2 harg2 arg3 harg3 arg4 harg4 arg5 harg5 hc0 hc1 x0 x1 xs0 xs1 = k0_pay7 x0 x1 xs1 := by
  unfold sout0_C_1
  rw [View.read_writes_eq_canon _ _ _ (scover0_C_1 c i arg1 harg1 arg2 harg2 arg3 harg3 arg4 harg4 arg5 harg5 hc0 hc1 x0 x1 xs0 xs1)]
  unfold kernelRun0_C
  dsimp only
  sl_unfold_words
  rw [View.canon_unit_zero hz]
  simp only [View.readAt_eq_ld, harg1.read_unread, harg2.read_unread, harg5.read_unread,
    View.ld_unit_zero (S := S256x3) hz, View.ld_unit_zero (S := S8192x3) hz, View.ld_unit_zero (S := S1x1) hz]

/-- The output entry: the larger of the new row accumulator and the largest entry of the new column accumulator. -/
theorem last_out (c : Dev nD) (i : grid0.Coords) (arg1 : Memref sig .tc .vmem S256x3 .f32) (harg1 : arg1.IsWhole) (arg2 : Memref sig .tc .vmem S8192x3 .f32) (harg2 : arg2.IsWhole) (arg3 : Memref sig .tc .vmem S1x1 .f32) (harg3 : arg3.IsWhole) (arg4 : Memref sig .tc .vmem S1x8192 .f32) (harg4 : arg4.IsWhole) (arg5 : Memref sig .tc .vmem S1x1 .f32) (harg5 : arg5.IsWhole) (hc0 : ¬cond0_0 i) (hc1 : cond0_1 i)
    (x0 : Vec F S256x3 .f32) (x1 : Vec F S8192x3 .f32) (xs0 : Vec F S1x8192 .f32) (xs1 : Vec F S1x1 .f32) :
    out0_C_2 c i arg1 harg1 arg2 harg2 arg3 harg3 arg4 harg4 arg5 harg5 hc0 hc1 x0 x1 xs0 xs1 = k0_pay2 (k0_pay1 (k0_pay6 x0 x1) xs0) (k0_pay7 x0 x1 xs1) := by
  unfold out0_C_2
  rw [View.read_writes_eq_canon _ _ _ (cover0_C_2 c i arg1 harg1 arg2 harg2 arg3 harg3 arg4 harg4 arg5 harg5 hc0 hc1 x0 x1 xs0 xs1)]
  unfold kernelRun0_C
  dsimp only
  sl_unfold_words
  rw [View.canon_unit_zero hz, View.readCov_unit_zero (S := S1x8192) _ hz, View.readCov_unit_zero (S := S1x1) _ hz]
  simp only [View.readAt_eq_ld, harg1.read_unread, harg2.read_unread, harg4.read_unread, harg5.read_unread,
    View.ld_unit_zero (S := S256x3) hz, View.ld_unit_zero (S := S8192x3) hz, View.ld_unit_zero (S := S1x8192) hz,
    View.ld_unit_zero (S := S1x1) hz]

end Cert.KernelIdeal.Pieces

end
-- ==== Proof.LibTiledMinMax.lean ====
/-
  General facts about minima and maxima of a table of extended reals read tile by tile.

  For a table `D r c` (rows `r`, columns `c`): the minimum down each column over the rows seen so far, the
  maximum over the rows seen so far of each row's minimum, how each grows when one more tile of rows is read,
  and the two-sided value `max (sup_r inf_c D r c) (sup_c inf_r D r c)` recovered once every row has been seen.
  A minimum is carried by what lies below it (`a ≤ min … ↔ …`), a maximum by what lies above it, so no order of
  evaluation and no finiteness enters: everything here holds at `⊤` and `⊥` too.

  Also: a square of an extended real is nonnegative, so a sum of three squares clamped below at zero is itself,
  and the two ways of writing the distance between two points of three coordinates agree.
-/
import Mathlib
import Idealize.ShloMosaic.PureOps.Ideal

namespace Cert.Lib.TiledMinMax

open Idealize.ShloMosaic

/-! ## Squares -/

/-- A square is nonnegative on the extended reals, the infinities included. -/
theorem mul_self_nonneg (a : EReal) : 0 ≤ a * a := by
  rcases le_total 0 a with h | h
  · exact mul_nonneg h h
  · have h' : 0 ≤ -a := by
      have := EReal.neg_le_neg_iff.2 h
      simpa using this
    have := mul_nonneg h' h'
    rwa [neg_mul_neg] at this

/-- The distance of two points with three coordinates, the sum of squares taken left to right and clamped below
    at zero before the root. -/
noncomputable def distClamped (x y : Fin 3 → EReal) : EReal :=
  Ideal.sqrt (max ((x 0 - y 0) * (x 0 - y 0) + (x 1 - y 1) * (x 1 - y 1) + (x 2 - y 2) * (x 2 - y 2)) 0)

/-- The same distance, the sum of squares started from zero and not clamped. -/
noncomputable def distSum (x y : Fin 3 → EReal) : EReal :=
  Ideal.sqrt (0 + ∑ k : Fin 3, (x k - y k) * (x k - y k))

/-- A sum of squares is nonnegative, so the clamp changes nothing; and a sum started from zero is the sum. -/
theorem distClamped_eq_distSum (x y : Fin 3 → EReal) : distClamped x y = distSum x y := by
  unfold distClamped distSum
  rw [Fin.sum_univ_three, zero_add, max_eq_left]
  exact add_nonneg (add_nonneg (mul_self_nonneg _) (mul_self_nonneg _)) (mul_self_nonneg _)

/-! ## Minima and maxima over the rows seen so far -/

variable {N M : ℕ} (D : Fin N → Fin M → EReal)

/-- The minimum down column `c` over the rows before `n`. -/
noncomputable def colMin (n : ℕ) (c : Fin M) : EReal := ⨅ r : Fin N, ⨅ _ : r.val < n, D r c

/-- The minimum along row `r`. -/
noncomputable def rowMin (r : Fin N) : EReal := ⨅ c : Fin M, D r c

/-- The maximum, over the rows before `n`, of the row minima. -/
noncomputable def rowMaxMin (n : ℕ) : EReal := ⨆ r : Fin N, ⨆ _ : r.val < n, rowMin D r

/-- The two-sided value: the larger of (the largest row minimum) and (the largest column minimum). -/
noncomputable def twoSided : EReal := max (⨆ r : Fin N, ⨅ c : Fin M, D r c) (⨆ c : Fin M, ⨅ r : Fin N, D r c)

theorem le_colMin_iff (n : ℕ) (c : Fin M) (a : EReal) : a ≤ colMin D n c ↔ ∀ r : Fin N, r.val < n → a ≤ D r c := by
  unfold colMin
  simp only [le_iInf_iff]

theorem le_rowMin_iff (r : Fin N) (a : EReal) : a ≤ rowMin D r ↔ ∀ c : Fin M, a ≤ D r c := by
  unfold rowMin
  simp only [le_iInf_iff]

theorem rowMaxMin_le_iff (n : ℕ) (b : EReal) : rowMaxMin D n ≤ b ↔ ∀ r : Fin N, r.val < n → rowMin D r ≤ b := by
  unfold rowMaxMin
  simp only [iSup_le_iff]

/-- Before any row, a column's minimum is `⊤`. -/
theorem colMin_zero (c : Fin M) : colMin D 0 c = ⊤ :=
  top_unique ((le_colMin_iff D 0 c ⊤).2 fun r h => absurd h (Nat.not_lt_zero _))

/-- Before any row, the maximum of the row minima is `⊥`. -/
theorem rowMaxMin_zero : rowMaxMin D 0 = ⊥ :=
  bot_unique ((rowMaxMin_le_iff D 0 ⊥).2 fun r h => absurd h (Nat.not_lt_zero _))

/-- One more tile of `B` rows starting at row `n`: the column's minimum so far, met with the tile's own column
    minimum `v` (given by what lies below it), is the minimum over the rows before `n + B`. -/
theorem colMin_step {B : ℕ} (n : ℕ) (row : Fin B → Fin N) (hrow : ∀ p, (row p).val = n + p.val) (c : Fin M) (v : EReal)
    (hv : ∀ a, a ≤ v ↔ ∀ p : Fin B, a ≤ D (row p) c) :
    min (colMin D n c) v = colMin D (n + B) c := by
  refine eq_of_forall_le_iff fun a => ?_
  rw [le_min_iff, le_colMin_iff, le_colMin_iff, hv]
  constructor
  · rintro ⟨h1, h2⟩ r hr
    by_cases hlt : r.val < n
    · exact h1 r hlt
    · have hp : r.val - n < B := by omega
      have e : row ⟨r.val - n, hp⟩ = r := Fin.ext (by rw [hrow]; show n + (r.val - n) = r.val; omega)
      exact e ▸ h2 ⟨r.val - n, hp⟩
  · intro h
    exact ⟨fun r hr => h r (by omega), fun p => h (row p) (by rw [hrow]; have := p.isLt; omega)⟩

/-- The same for the maximum of the row minima: joined with the tile's own maximum `w` of its rows' minima. -/
theorem rowMaxMin_step {B : ℕ} (n : ℕ) (row : Fin B → Fin N) (hrow : ∀ p, (row p).val = n + p.val) (w : EReal)
    (hw : ∀ b, w ≤ b ↔ ∀ p : Fin B, rowMin D (row p) ≤ b) :
    max (rowMaxMin D n) w = rowMaxMin D (n + B) := by
  refine eq_of_forall_ge_iff fun b => ?_
  rw [max_le_iff, rowMaxMin_le_iff, rowMaxMin_le_iff, hw]
  constructor
  · rintro ⟨h1, h2⟩ r hr
    by_cases hlt : r.val < n
    · exact h1 r hlt
    · have hp : r.val - n < B := by omega
      have e : row ⟨r.val - n, hp⟩ = r := Fin.ext (by rw [hrow]; show n + (r.val - n) = r.val; omega)
      exact e ▸ h2 ⟨r.val - n, hp⟩
  · intro h
    exact ⟨fun r hr => h r (by omega), fun p => h (row p) (by rw [hrow]; have := p.isLt; omega)⟩

/-- Once every row has been seen (`N ≤ n`): the maximum of the row minima, joined with the maximum `z` of the
    columns' minima (given by what lies above it), is the two-sided value. -/
theorem twoSided_of_all (n : ℕ) (hn : N ≤ n) (z : EReal) (hz : ∀ b, z ≤ b ↔ ∀ c : Fin M, colMin D n c ≤ b) :
    max (rowMaxMin D n) z = twoSided D := by
  unfold twoSided
  congr 1
  · refine eq_of_forall_ge_iff fun b => ?_
    rw [rowMaxMin_le_iff, iSup_le_iff]
    exact ⟨fun h r => h r (lt_of_lt_of_le r.isLt hn), fun h r _ => h r⟩
  · refine eq_of_forall_ge_iff fun b => ?_
    rw [hz, iSup_le_iff]
    refine forall_congr' fun c => ?_
    have e : colMin D n c = ⨅ r : Fin N, D r c :=
      eq_of_forall_le_iff fun a => by
        rw [le_colMin_iff, le_iInf_iff]
        exact ⟨fun h r => h r (lt_of_lt_of_le r.isLt hn), fun h r _ => h r⟩
    rw [e]

end Cert.Lib.TiledMinMax
-- ==== Proof.LibReduceBounds.lean ====
/-
  General facts, for any shapes: a minimum- or maximum-reduction over the extended reals, carried by its bounds.

  A `vector.multi_reduction <minimumf>` and the host's `reduce … minimum` at a result index `j` are the fold of `min`
  from the initial value over the source indices that drop to `j`; so an `a` lies below the result exactly when it
  lies below the initial value and below every such source entry.  Dually for `<maximumf>` and what lies above.
  No order of evaluation enters.  Then the index sets by coordinates: along a row or down a column of a rank-2
  array, and every index when the result has a single entry.
-/
import Idealize.ShloMosaic.PureOps.Ideal.Laws
import Idealize.ShloMosaic.Lib.ValueIdx

namespace Cert.Lib.ReduceBounds

open Idealize.ShloMosaic Idealize.ShloMosaic.ValueIdx

variable {s t : Shape} {φ : FTy} {axes : List (Fin s.rank)}

/-! ## Any axes -/

/-- Below a kernel's minimum-reduction: below the initial value and below every entry that reduces to `j`. -/
theorem le_multiReduction_min_iff (src : FVec Ideal s φ) (acc : BitVec φ.bits) (h : s.Reduces axes t)
    (hφ : FKind.Formats φ) (hacc : acc = FKind.minimumf.neutral φ hφ) (j : t.Idx) (a : EReal) :
    a ≤ multiReduction .minimumf axes t src acc h hφ hacc j
      ↔ a ≤ Ideal.ofBits φ acc ∧ ∀ i : s.Idx, h.drop i = j → a ≤ src i := by
  rw [multiReduction_minimumf_eq_fold]
  refine (Finset.le_fold_min (f := src) (b := Ideal.ofBits φ acc) (c := a)
    (s := Finset.univ.filter fun i => h.drop i = j)).trans (and_congr Iff.rfl ?_)
  simp only [Finset.mem_filter, Finset.mem_univ, true_and]

/-- Above a kernel's maximum-reduction: above the initial value and above every entry that reduces to `j`. -/
theorem multiReduction_max_le_iff (src : FVec Ideal s φ) (acc : BitVec φ.bits) (h : s.Reduces axes t)
    (hφ : FKind.Formats φ) (hacc : acc = FKind.maximumf.neutral φ hφ) (j : t.Idx) (b : EReal) :
    multiReduction .maximumf axes t src acc h hφ hacc j ≤ b
      ↔ Ideal.ofBits φ acc ≤ b ∧ ∀ i : s.Idx, h.drop i = j → src i ≤ b := by
  rw [multiReduction_maximumf_eq_fold]
  refine (Finset.fold_max_le (f := src) (b := Ideal.ofBits φ acc) (c := b)
    (s := Finset.univ.filter fun i => h.drop i = j)).trans (and_congr Iff.rfl ?_)
  simp only [Finset.mem_filter, Finset.mem_univ, true_and]

/-- Below the host's minimum-reduction. -/
theorem le_hostReduce_min_iff {u : Shape} (x : s.Idx → Ideal φ) (init : u.Idx → Ideal φ) (h : s.ReducesTo axes t)
    (hu : 0 < u.numel) (j : t.Idx) (a : EReal) :
    a ≤ Host.reduce (FloatOps.minimumf (F := Ideal) (φ := φ)) x init h hu j
      ↔ a ≤ init (Shape.Idx.first hu) ∧ ∀ i : s.Idx, h.drop i = j → a ≤ x i := by
  rw [Host.reduce_eq_fold]
  refine (Finset.le_fold_min (f := x) (b := init (Shape.Idx.first hu)) (c := a)
    (s := Finset.univ.filter fun i => h.drop i = j)).trans (and_congr Iff.rfl ?_)
  simp only [Finset.mem_filter, Finset.mem_univ, true_and]

/-- Above the host's maximum-reduction. -/
theorem hostReduce_max_le_iff {u : Shape} (x : s.Idx → Ideal φ) (init : u.Idx → Ideal φ) (h : s.ReducesTo axes t)
    (hu : 0 < u.numel) (j : t.Idx) (b : EReal) :
    Host.reduce (FloatOps.maximumf (F := Ideal) (φ := φ)) x init h hu j ≤ b
      ↔ init (Shape.Idx.first hu) ≤ b ∧ ∀ i : s.Idx, h.drop i = j → x i ≤ b := by
  rw [Host.reduce_eq_fold]
  refine (Finset.fold_max_le (f := x) (b := init (Shape.Idx.first hu)) (c := b)
    (s := Finset.univ.filter fun i => h.drop i = j)).trans (and_congr Iff.rfl ?_)
  simp only [Finset.mem_filter, Finset.mem_univ, true_and]

/-! ## A result with a single entry: every source index reduces to it -/

theorem drop_eq_of_unit (h : s.Reduces axes t) (ht : ∀ b, t.size b = 1) (i : s.Idx) (j : t.Idx) : h.drop i = j :=
  funext fun b => Fin.ext (by have := (h.drop i b).isLt; have := (j b).isLt; have := ht b; omega)

theorem dropTo_eq_of_unit (h : s.ReducesTo axes t) (ht : ∀ b, t.size b = 1) (i : s.Idx) (j : t.Idx) : h.drop i = j :=
  funext fun b => Fin.ext (by have := (h.drop i b).isLt; have := (j b).isLt; have := ht b; omega)

/-- Above a kernel's maximum over everything: above the initial value and above every entry. -/
theorem multiReduction_max_total_le_iff (src : FVec Ideal s φ) (acc : BitVec φ.bits) (h : s.Reduces axes t)
    (ht : ∀ b, t.size b = 1) (hφ : FKind.Formats φ) (hacc : acc = FKind.maximumf.neutral φ hφ) (j : t.Idx) (b : EReal) :
    multiReduction .maximumf axes t src acc h hφ hacc j ≤ b ↔ Ideal.ofBits φ acc ≤ b ∧ ∀ i : s.Idx, src i ≤ b :=
  (multiReduction_max_le_iff src acc h hφ hacc j b).trans
    (and_congr Iff.rfl ⟨fun H i => H i (drop_eq_of_unit h ht i j), fun H i _ => H i⟩)

/-- Above the host's maximum over everything. -/
theorem hostReduce_max_total_le_iff {u : Shape} (x : s.Idx → Ideal φ) (init : u.Idx → Ideal φ) (h : s.ReducesTo axes t)
    (ht : ∀ b, t.size b = 1) (hu : 0 < u.numel) (j : t.Idx) (b : EReal) :
    Host.reduce (FloatOps.maximumf (F := Ideal) (φ := φ)) x init h hu j ≤ b
      ↔ init (Shape.Idx.first hu) ≤ b ∧ ∀ i : s.Idx, x i ≤ b :=
  (hostReduce_max_le_iff x init h hu j b).trans
    (and_congr Iff.rfl ⟨fun H i => H i (dropTo_eq_of_unit h ht i j), fun H i _ => H i⟩)

/-! ## Through a shape cast -/

/-- A shape cast only re-indexes, one to one and onto: an upper bound of every entry of the cast is an upper bound
    of every entry of the source. -/
theorem forall_shapeCast_le_iff {u : Shape} (x : s.Idx → EReal) (h : s.ShapeCasts u) (b : EReal) :
    (∀ j : u.Idx, shapeCast u x h j ≤ b) ↔ ∀ k : s.Idx, x k ≤ b := by
  unfold shapeCast
  constructor
  · intro H k
    have := H ((Shape.reshapeEquiv h).symm k)
    rwa [Equiv.apply_symm_apply] at this
  · intro H j
    exact H _

/-- The one entry of a maximum over everything, cast to another single-entry shape and taken out at a position:
    it is the maximum's entry, so it has the maximum's bounds. -/
theorem extractAt_shapeCast_max_total_le_iff {u : Shape} (src : FVec Ideal s φ) (acc : BitVec φ.bits) (h : s.Reduces axes t)
    (ht : ∀ b, t.size b = 1) (hφ : FKind.Formats φ) (hacc : acc = FKind.maximumf.neutral φ hφ)
    (hc : t.ShapeCasts u) (pos : Fin u.rank → Nat) (hp : ∀ a, pos a < u.size a) (b : EReal) :
    extractAt pos (shapeCast u (multiReduction .maximumf axes t src acc h hφ hacc) hc) hp ≤ b
      ↔ Ideal.ofBits φ acc ≤ b ∧ ∀ i : s.Idx, src i ≤ b :=
  multiReduction_max_total_le_iff src acc h ht hφ hacc _ b

/-! ## Every index, by coordinates -/

theorem forall_idx1_le_iff {n : ℕ} (x : (⟨1, ![n]⟩ : Shape).Idx → EReal) (b : EReal) :
    (∀ k, x k ≤ b) ↔ ∀ p : Fin n, x (ix1 p) ≤ b :=
  ⟨fun H p => H _, fun H k => by rw [eq_ix1 k]; exact H _⟩

theorem forall_idx2_row_le_iff {n : ℕ} (x : (⟨2, ![1, n]⟩ : Shape).Idx → EReal) (b : EReal) :
    (∀ k, x k ≤ b) ↔ ∀ q : Fin n, x (ix2 (0 : Fin 1) q) ≤ b :=
  ⟨fun H q => H _, fun H k => by rw [eq_ix2 k, Fin.eq_zero (k 0)]; exact H _⟩

/-! ## Rank 2: along a row, down a column -/

variable {n0 n1 : ℕ}

/-- Reducing the columns away, the dropped index keeps the row coordinate. -/
theorem drop_axis1_val (h : (⟨2, ![n0, n1]⟩ : Shape).Reduces [1] ⟨1, ![n0]⟩) (i : (⟨2, ![n0, n1]⟩ : Shape).Idx) (b : Fin 1) :
    (h.drop i b).val = (i 0).val := by
  match b with
  | ⟨0, _⟩ => rfl

/-- Reducing the rows away, the dropped index keeps the column coordinate. -/
theorem drop_axis0_val (h : (⟨2, ![n0, n1]⟩ : Shape).Reduces [0] ⟨1, ![n1]⟩) (i : (⟨2, ![n0, n1]⟩ : Shape).Idx) (b : Fin 1) :
    (h.drop i b).val = (i 1).val := by
  match b with
  | ⟨0, _⟩ => rfl

/-- Reducing the columns away, an index drops to row `r` exactly when it is in row `r`. -/
theorem drop_axis1_iff (h : (⟨2, ![n0, n1]⟩ : Shape).Reduces [1] ⟨1, ![n0]⟩) (i : (⟨2, ![n0, n1]⟩ : Shape).Idx) (r : Fin n0) :
    h.drop i = ix1 r ↔ i 0 = r := by
  constructor
  · intro e
    apply Fin.ext
    have e0 : (h.drop i (0 : Fin 1)).val = r.val := congrArg (fun j : (⟨1, ![n0]⟩ : Shape).Idx => (j 0).val) e
    rw [drop_axis1_val h i 0] at e0
    exact e0
  · intro e
    funext b
    apply Fin.ext
    rw [drop_axis1_val h i b, e]
    match b with
    | ⟨0, _⟩ => rfl

/-- Reducing the rows away, an index drops to column `c` exactly when it is in column `c`. -/
theorem drop_axis0_iff (h : (⟨2, ![n0, n1]⟩ : Shape).Reduces [0] ⟨1, ![n1]⟩) (i : (⟨2, ![n0, n1]⟩ : Shape).Idx) (c : Fin n1) :
    h.drop i = ix1 c ↔ i 1 = c := by
  constructor
  · intro e
    apply Fin.ext
    have e0 : (h.drop i (0 : Fin 1)).val = c.val := congrArg (fun j : (⟨1, ![n1]⟩ : Shape).Idx => (j 0).val) e
    rw [drop_axis0_val h i 0] at e0
    exact e0
  · intro e
    funext b
    apply Fin.ext
    rw [drop_axis0_val h i b, e]
    match b with
    | ⟨0, _⟩ => rfl

/-- Below a kernel's row minimum: below the initial value and below every entry of the row. -/
theorem le_rowMin_iff (src : FVec Ideal ⟨2, ![n0, n1]⟩ φ) (acc : BitVec φ.bits)
    (h : (⟨2, ![n0, n1]⟩ : Shape).Reduces [1] ⟨1, ![n0]⟩) (hφ : FKind.Formats φ) (hacc : acc = FKind.minimumf.neutral φ hφ)
    (r : Fin n0) (a : EReal) :
    a ≤ multiReduction .minimumf [1] ⟨1, ![n0]⟩ src acc h hφ hacc (ix1 r)
      ↔ a ≤ Ideal.ofBits φ acc ∧ ∀ c : Fin n1, a ≤ src (ix2 r c) := by
  refine (le_multiReduction_min_iff src acc h hφ hacc (ix1 r) a).trans (and_congr Iff.rfl ?_)
  constructor
  · intro H c
    exact H (ix2 r c) ((drop_axis1_iff h _ r).2 rfl)
  · intro H i hi
    have e := (drop_axis1_iff h i r).1 hi
    rw [eq_ix2 i, e]
    exact H (i 1)

/-- Below a kernel's column minimum: below the initial value and below every entry of the column. -/
theorem le_colMin_iff (src : FVec Ideal ⟨2, ![n0, n1]⟩ φ) (acc : BitVec φ.bits)
    (h : (⟨2, ![n0, n1]⟩ : Shape).Reduces [0] ⟨1, ![n1]⟩) (hφ : FKind.Formats φ) (hacc : acc = FKind.minimumf.neutral φ hφ)
    (c : Fin n1) (a : EReal) :
    a ≤ multiReduction .minimumf [0] ⟨1, ![n1]⟩ src acc h hφ hacc (ix1 c)
      ↔ a ≤ Ideal.ofBits φ acc ∧ ∀ r : Fin n0, a ≤ src (ix2 r c) := by
  refine (le_multiReduction_min_iff src acc h hφ hacc (ix1 c) a).trans (and_congr Iff.rfl ?_)
  constructor
  · intro H r
    exact H (ix2 r c) ((drop_axis0_iff h _ c).2 rfl)
  · intro H i hi
    have e := (drop_axis0_iff h i c).1 hi
    rw [eq_ix2 i, e]
    exact H (i 0)

/-- Below the host's row minimum. -/
theorem le_hostRowMin_iff {u : Shape} (x : (⟨2, ![n0, n1]⟩ : Shape).Idx → Ideal φ) (init : u.Idx → Ideal φ)
    (h' : (⟨2, ![n0, n1]⟩ : Shape).ReducesTo [1] ⟨1, ![n0]⟩) (h : (⟨2, ![n0, n1]⟩ : Shape).Reduces [1] ⟨1, ![n0]⟩)
    (hu : 0 < u.numel) (r : Fin n0) (a : EReal) :
    a ≤ Host.reduce (FloatOps.minimumf (F := Ideal) (φ := φ)) x init h' hu (ix1 r)
      ↔ a ≤ init (Shape.Idx.first hu) ∧ ∀ c : Fin n1, a ≤ x (ix2 r c) := by
  refine (le_hostReduce_min_iff x init h' hu (ix1 r) a).trans (and_congr Iff.rfl ?_)
  rw [Shape.ReducesTo.drop_eq_drop h' h]
  constructor
  · intro H c
    exact H (ix2 r c) ((drop_axis1_iff h _ r).2 rfl)
  · intro H i hi
    have e := (drop_axis1_iff h i r).1 hi
    rw [eq_ix2 i, e]
    exact H (i 1)

/-- Below the host's column minimum. -/
theorem le_hostColMin_iff {u : Shape} (x : (⟨2, ![n0, n1]⟩ : Shape).Idx → Ideal φ) (init : u.Idx → Ideal φ)
    (h' : (⟨2, ![n0, n1]⟩ : Shape).ReducesTo [0] ⟨1, ![n1]⟩) (h : (⟨2, ![n0, n1]⟩ : Shape).Reduces [0] ⟨1, ![n1]⟩)
    (hu : 0 < u.numel) (c : Fin n1) (a : EReal) :
    a ≤ Host.reduce (FloatOps.minimumf (F := Ideal) (φ := φ)) x init h' hu (ix1 c)
      ↔ a ≤ init (Shape.Idx.first hu) ∧ ∀ r : Fin n0, a ≤ x (ix2 r c) := by
  refine (le_hostReduce_min_iff x init h' hu (ix1 c) a).trans (and_congr Iff.rfl ?_)
  rw [Shape.ReducesTo.drop_eq_drop h' h]
  constructor
  · intro H r
    exact H (ix2 r c) ((drop_axis0_iff h _ c).2 rfl)
  · intro H i hi
    have e := (drop_axis0_iff h i c).1 hi
    rw [eq_ix2 i, e]
    exact H (i 0)

end Cert.Lib.ReduceBounds
-- ==== Proof.LibColumnForms.lean ====
/-
  General facts about rank-2 arrays, for any sizes.

  The column forms a row-wise reduction with kept dimensions needs: a vector of `a` row values viewed as an `a × 1`
  column, and such a column spread over `b` columns.  And the two one-axis sums of an `a × b` array of extended reals:
  along the rows' entries (one value per row) and down the columns (one value per column), each as a plain finite sum.
-/
import Idealize.ShloMosaic.PureOps.Ideal.Laws
import Idealize.ShloMosaic.Lib.ValueIdx
import Idealize.ShloMosaic.Lib.ValueLayout
import Idealize.ShloMosaic.Lib.Pipeline.Value

namespace Cert.Lib.ColumnForms

open Idealize.ShloMosaic Idealize.ShloMosaic.ValueIdx

variable {α : Type}

/-- An `[a]` array cast to an `[a, 1]` column reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An `[a, 1]` column broadcast to `[a, b]` reads, at `(r, c)`, the column's entry of row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- The sum along each row of an `a × b` array of extended reals: at row `r`, the sum over the `b` columns. -/
theorem rowSum_apply {a b : ℕ} {φ : FTy} (src : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src ?_
  funext ax; apply Fin.ext
  match ax with
  | ⟨0, _⟩ => rfl
  | ⟨1, _⟩ => rfl

/-- The sum down each column of an `a × b` array of extended reals: at column `c`, the sum over the `a` rows. -/
theorem colSum_apply {a b : ℕ} {φ : FTy} (src : FVec Ideal ⟨2, ![a, b]⟩ φ) (acc : BitVec φ.bits)
    (h : Shape.Reduces ⟨2, ![a, b]⟩ [0] ⟨1, ![b]⟩) (hφ : FKind.Formats φ) (hacc : acc = FKind.add.neutral φ hφ) (c : Fin b) :
    multiReduction .add [0] ⟨1, ![b]⟩ src acc h hφ hacc (ix1 c) = ∑ k : Fin a, src (ix2 k c) := by
  refine (Ideal.multiReduction_add_single src acc h hφ hacc (ix1 c)).trans ?_
  refine Finset.sum_congr rfl fun k _ => congrArg src ?_
  funext ax; apply Fin.ext
  match ax with
  | ⟨0, _⟩ => rfl
  | ⟨1, _⟩ => rfl

end Cert.Lib.ColumnForms
-- ==== Proof.Payloads.lean ====
/-
  The body's arithmetic at the extended reals, entry by entry.

  For a block `x` of 256 points (rows of three coordinates) and the table `y` of all 8192 points:
  entry (p, q) of the distance block is the distance of `x`'s point p from `y`'s point q (the sum of the three
  squared coordinate differences, clamped below at zero, then the root); the block's column minima and its largest
  row minimum are carried by their bounds (what lies below a minimum, what lies above a maximum), never by an
  order of evaluation; the two reset values are the top and the bottom of the extended reals.
-/
import proofs.«109463_j65635690217853_2_alg».proof.Proof.Gen.KernelIdeal.Skeleton
import proofs.«109463_j65635690217853_2_alg».proof.Proof.LibTiledMinMax
import proofs.«109463_j65635690217853_2_alg».proof.Proof.LibReduceBounds
import proofs.«109463_j65635690217853_2_alg».proof.Proof.LibColumnForms
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.KernelIdeal.Payloads

open Cert.KernelIdeal Cert.KernelIdeal.Gen Cert.Lib.TiledMinMax Cert.Lib.ReduceBounds Cert.Lib.ColumnForms

/-- The +infinity word is the top of the extended reals, the -infinity word the bottom. -/
theorem ofBits_posInf : Ideal.ofBits .f32 0x7F800000#32 = ⊤ := by simp [Ideal.ofBits, Ideal.ieee]
theorem ofBits_negInf : Ideal.ofBits .f32 0xFF800000#32 = ⊥ := by simp [Ideal.ofBits, Ideal.ieee]

/-- Point `p` of a block or table of points: its three coordinates. -/
abbrev point {n : ℕ} (x : (⟨2, ![n, 3]⟩ : Shape).Idx → EReal) (p : Fin n) : Fin 3 → EReal := fun k => x (ix2 p k)

/-- The reset value of the column accumulator: top, at every entry. -/
theorem reset_col_apply (q : Fin 8192) : k0_pay3 (F := Ideal) (ix2 (0 : Fin 1) q) = ⊤ := by
  unfold k0_pay3
  rw [shapeCast_self]
  exact ofBits_posInf

/-- The reset value of the row accumulator: bottom. -/
theorem reset_row_apply : k0_pay4 (F := Ideal) (ix2 (0 : Fin 1) (0 : Fin 1)) = ⊥ := by
  unfold k0_pay4
  rw [shapeCast_self]
  exact ofBits_negInf

/-- The column accumulator's update: entrywise minimum of the old accumulator and the block's column minima. -/
theorem col_update_apply (v : FVec Ideal S1x8192 .f32) (acc : Vec Ideal S1x8192 .f32) (q : Fin 8192) :
    k0_pay1 (F := Ideal) v acc (ix2 (0 : Fin 1) q) = min (acc (ix2 (0 : Fin 1) q)) (v (ix2 (0 : Fin 1) q)) := by
  unfold k0_pay1
  rw [shapeCast_self]
  rfl

/-- Entry (p, q) of the distance block. -/
theorem dist_apply (x : Vec Ideal S256x3 .f32) (y : Vec Ideal S8192x3 .f32) (p : Fin 256) (q : Fin 8192) :
    k0_pay5 (F := Ideal) x y (ix2 p q) = distClamped (point x p) (point y q) := by
  have sx0 := slice2_axis1_apply 0 x slices_S256x3_o0_0_S256x1 p (0 : Fin 1) (0 : Fin 3) rfl
  have sx1 := slice2_axis1_apply 1 x slices_S256x3_o0_1_S256x1 p (0 : Fin 1) (1 : Fin 3) rfl
  have sx2 := slice2_axis1_apply 2 x slices_S256x3_o0_2_S256x1 p (0 : Fin 1) (2 : Fin 3) rfl
  have sy0 := (slice2_axis0_apply 0 (transpose S3x8192 [1, 0] y transposes_S8192x3_p1_0_S3x8192)
    slices_S3x8192_o0_0_S1x8192 (0 : Fin 1) q (0 : Fin 3) rfl).trans (transpose_ix2_apply y _ (0 : Fin 3) q)
  have sy1 := (slice2_axis0_apply 1 (transpose S3x8192 [1, 0] y transposes_S8192x3_p1_0_S3x8192)
    slices_S3x8192_o1_0_S1x8192 (0 : Fin 1) q (1 : Fin 3) rfl).trans (transpose_ix2_apply y _ (1 : Fin 3) q)
  have sy2 := (slice2_axis0_apply 2 (transpose S3x8192 [1, 0] y transposes_S8192x3_p1_0_S3x8192)
    slices_S3x8192_o2_0_S1x8192 (0 : Fin 1) q (2 : Fin 3) rfl).trans (transpose_ix2_apply y _ (2 : Fin 3) q)
  unfold k0_pay5 distClamped point
  show Ideal.sqrt (max (_ + _ + _) (Ideal.ofBits .f32 0x00000000#32)) = _
  rw [Ideal.ofBits_zero_f32]
  simp only [mulf_apply, subf_apply, broadcastTo_a1_ab_apply, ValueIdx.broadcastTo_1b_ab_apply]
  rw [sx0, sx1, sx2, sy0, sy1, sy2]

/-- The block's minimum down column `q`: the least distance of `y`'s point `q` from the block's 256 points. -/
theorem blockColMin_apply (x : Vec Ideal S256x3 .f32) (y : Vec Ideal S8192x3 .f32) (q : Fin 8192) :
    k0_pay6 (F := Ideal) x y (ix2 (0 : Fin 1) q) = ⨅ p : Fin 256, distClamped (point x p) (point y q) := by
  unfold k0_pay6
  rw [shapeCast_a_1a_apply]
  refine eq_of_forall_le_iff fun a => ?_
  refine (Cert.Lib.ReduceBounds.le_colMin_iff _ _ _ _ _ q a).trans ?_
  rw [ofBits_posInf, le_iInf_iff]
  simp only [le_top, true_and, dist_apply]

/-- The block's minimum along row `p`: the least distance of the block's point `p` from `y`'s 8192 points. -/
theorem blockRowMin_apply (x : Vec Ideal S256x3 .f32) (y : Vec Ideal S8192x3 .f32) (p : Fin 256) :
    multiReduction .minimumf [1] S256 (k0_pay5 (F := Ideal) x y) 0x7F800000#32 reduces_S256x8192_S256 (.inl rfl) rfl (ix1 p)
      = ⨅ q : Fin 8192, distClamped (point x p) (point y q) := by
  refine eq_of_forall_le_iff fun a => ?_
  refine (Cert.Lib.ReduceBounds.le_rowMin_iff _ _ _ _ _ p a).trans ?_
  rw [ofBits_posInf, le_iInf_iff]
  simp only [le_top, true_and, dist_apply]

/-- The row accumulator's update: the maximum of the old accumulator and the largest of the block's row minima. -/
theorem row_update_apply (x : Vec Ideal S256x3 .f32) (y : Vec Ideal S8192x3 .f32) (acc : Vec Ideal S1x1 .f32) :
    k0_pay7 (F := Ideal) x y acc (ix2 (0 : Fin 1) (0 : Fin 1))
      = max (acc (ix2 (0 : Fin 1) (0 : Fin 1))) (⨆ p : Fin 256, ⨅ q : Fin 8192, distClamped (point x p) (point y q)) := by
  unfold k0_pay7
  rw [shapeCast_self, maximumf_apply, broadcast_apply]
  refine congrArg (max (acc (ix2 (0 : Fin 1) (0 : Fin 1)))) ?_
  refine eq_of_forall_ge_iff fun b => ?_
  refine (extractAt_shapeCast_max_total_le_iff _ _ _ (fun b => by match b with | ⟨0, _⟩ => rfl) _ _ _ _ _ b).trans ?_
  rw [ofBits_negInf, forall_shapeCast_le_iff, forall_shapeCast_le_iff, forall_idx1_le_iff, iSup_le_iff]
  simp only [bot_le, true_and]
  refine forall_congr' fun p => ?_
  exact Iff.of_eq (congrArg (· ≤ b) (blockRowMin_apply x y p))

/-- The output entry: the maximum of the row accumulator and the largest entry of the column accumulator. -/
theorem out_apply (col : Vec Ideal S1x8192 .f32) (row : Vec Ideal S1x1 .f32) :
    k0_pay2 (F := Ideal) col row (ix2 (0 : Fin 1) (0 : Fin 1))
      = max (row (ix2 (0 : Fin 1) (0 : Fin 1))) (⨆ q : Fin 8192, col (ix2 (0 : Fin 1) q)) := by
  unfold k0_pay2
  rw [maximumf_apply, broadcast_apply]
  refine congrArg (max (row (ix2 (0 : Fin 1) (0 : Fin 1)))) ?_
  refine eq_of_forall_ge_iff fun b => ?_
  refine (extractAt_shapeCast_max_total_le_iff _ _ _ (fun b => by match b with | ⟨0, _⟩ => rfl) _ _ _ _ _ b).trans ?_
  rw [ofBits_negInf, forall_shapeCast_le_iff, forall_idx2_row_le_iff, iSup_le_iff]
  simp only [bot_le, true_and]

end Cert.KernelIdeal.Payloads

end
-- ==== Proof.Accumulate.lean ====
/-
  The two accumulators after each grid point, and the output entry after the last.

  Write `D r q` for the distance of `X`'s point `r` from `Y`'s point `q` (sum of squares clamped at zero, then the
  root).  Point `t` of the grid reads rows `256 t … 256 t + 255` of `X` and all of `Y`.  By induction on the point:
  after point `t` the column accumulator holds, at `q`, the minimum of `D r q` over the rows `r < 256 (t + 1)`,
  and the row accumulator holds the maximum over those rows of each row's minimum.  After the last point every
  row has been seen, and the output entry — the row accumulator joined with the largest column minimum — is
  `max (sup_r inf_q D r q) (sup_q inf_r D r q)`.
-/
import proofs.«109463_j65635690217853_2_alg».proof.Proof.Gen.KernelIdeal.Frame
import proofs.«109463_j65635690217853_2_alg».proof.Proof.Pieces
import proofs.«109463_j65635690217853_2_alg».proof.Proof.Payloads
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hausdorff

open Cert.KernelIdeal Cert.KernelIdeal.Gen Cert.Lib.TiledMinMax Cert.KernelIdeal.Payloads

variable (m : (ℓ : Loc nD τ sig) → Buf (Elt Ideal) ℓ)

/-- The two argument arrays on core `c`. -/
abbrev X (c : Dev nD) : Vec Ideal S8192x3 .f32 := m ((c : Thread nD τ).loc main_arg0)
abbrev Y (c : Dev nD) : Vec Ideal S8192x3 .f32 := m ((c : Thread nD τ).loc main_arg1)

/-- The distance table of the two argument arrays. -/
def table (c : Dev nD) : Fin 8192 → Fin 8192 → EReal :=
  fun r q => distClamped (point (X m c) r) (point (Y m c) q)

/-- The two blocks the body reads at point `t`: 256 rows of `X`, and all of `Y`. -/
abbrev xb (c : Dev nD) (t : Fin cfg0.N) : Vec Ideal S256x3 .f32 := iblk m c 0 t
abbrev yb (c : Dev nD) (t : Fin cfg0.N) : Vec Ideal S8192x3 .f32 := iblk m c 1 t

/-- Window 0's block index at point `t` is (t, 0); window 1's is (0, 0). -/
theorem idx_x : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_y : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- Row `p` of point `t`'s block is row `256 t + p` of `X`. -/
def rowOf (t : Fin cfg0.N) (p : Fin 256) : Fin 8192 :=
  ⟨256 * t.val + p.val, by have := t.isLt; have hN : cfg0.N = 32 := N_0; have := p.isLt; omega⟩

theorem xb_apply (c : Dev nD) (t : Fin cfg0.N) (p : Fin 256) (k : Fin 3) :
    xb m c t (ix2 p k) = X m c (ix2 (rowOf t p) k) := by
  show iblk m c 0 t (ix2 p k) = _
  unfold iblk
  rw [View.read_apply]
  show m ((c : Thread nD τ).loc main_arg0) _ = m ((c : Thread nD τ).loc main_arg0) _
  refine congrArg (m ((c : Thread nD τ).loc main_arg0)) (funext fun a => Fin.ext ?_)
  match a with
  | ⟨0, _⟩ =>
    show win0_0.index t 0 * 256 + 1 * p.val = 256 * t.val + p.val
    rw [(idx_x t).1]; omega
  | ⟨1, _⟩ =>
    show win0_0.index t 1 * 3 + 1 * k.val = k.val
    rw [(idx_x t).2]; omega

theorem yb_apply (c : Dev nD) (t : Fin cfg0.N) (q : Fin 8192) (k : Fin 3) :
    yb m c t (ix2 q k) = Y m c (ix2 q k) := by
  show iblk m c 1 t (ix2 q k) = _
  unfold iblk
  rw [View.read_apply]
  show m ((c : Thread nD τ).loc main_arg1) _ = m ((c : Thread nD τ).loc main_arg1) _
  refine congrArg (m ((c : Thread nD τ).loc main_arg1)) (funext fun a => Fin.ext ?_)
  match a with
  | ⟨0, _⟩ =>
    show win0_1.index t 0 * 8192 + 1 * q.val = q.val
    rw [(idx_y t).1]; omega
  | ⟨1, _⟩ =>
    show win0_1.index t 1 * 3 + 1 * k.val = k.val
    rw [(idx_y t).2]; omega

theorem point_xb (c : Dev nD) (t : Fin cfg0.N) (p : Fin 256) : point (xb m c t) p = point (X m c) (rowOf t p) :=
  funext fun k => xb_apply m c t p k

theorem point_yb (c : Dev nD) (t : Fin cfg0.N) (q : Fin 8192) : point (yb m c t) q = point (Y m c) q :=
  funext fun k => yb_apply m c t q k

/-! ## One point's update of each accumulator -/

/-- The column accumulator: from the minima over the rows before `256 t` to those before `256 (t + 1)`. -/
theorem step_col (c : Dev nD) (t : Fin cfg0.N) (prev : Vec Ideal S1x8192 .f32) (q : Fin 8192)
    (hprev : prev (ix2 (0 : Fin 1) q) = colMin (table m c) (256 * t.val) q) :
    k0_pay1 (F := Ideal) (k0_pay6 (xb m c t) (yb m c t)) prev (ix2 (0 : Fin 1) q)
      = colMin (table m c) (256 * (t.val + 1)) q := by
  rw [col_update_apply, blockColMin_apply, hprev, Nat.mul_add, Nat.mul_one]
  refine colMin_step (table m c) (256 * t.val) (rowOf t) (fun p => rfl) q _ fun a => ?_
  rw [le_iInf_iff]
  refine forall_congr' fun p => ?_
  rw [point_xb, point_yb]
  rfl

/-- The row accumulator likewise. -/
theorem step_row (c : Dev nD) (t : Fin cfg0.N) (prev : Vec Ideal S1x1 .f32)
    (hprev : prev (ix2 (0 : Fin 1) (0 : Fin 1)) = rowMaxMin (table m c) (256 * t.val)) :
    k0_pay7 (F := Ideal) (xb m c t) (yb m c t) prev (ix2 (0 : Fin 1) (0 : Fin 1))
      = rowMaxMin (table m c) (256 * (t.val + 1)) := by
  rw [row_update_apply, hprev, Nat.mul_add, Nat.mul_one]
  refine rowMaxMin_step (table m c) (256 * t.val) (rowOf t) (fun p => rfl) _ fun b => ?_
  rw [iSup_le_iff]
  refine forall_congr' fun p => ?_
  unfold rowMin table
  simp only [point_xb, point_yb]

/-! ## What each case leaves in the accumulators and the output, as the body's named arithmetic -/

/-- After the first point. -/
theorem col_first (c : Dev nD) (h : 0 < cfg0.N) :
    (outsAt0 m c 0 h).2.1 = k0_pay1 (k0_pay6 (xb m c ⟨0, h⟩) (yb m c ⟨0, h⟩)) (k0_pay3 (F := Ideal)) := by
  rw [show outsAt0 m c 0 h = _ from outsAt0_A m c ⟨0, h⟩ rfl (fun h' => absurd h' (by decide : ¬(0 % 32 = 31)))]
  dsimp only
  exact Pieces.first_col (F := Ideal) c _ _ _ _ _ _ _ _ _ _ _ _ _ (xb m c ⟨0, h⟩) (yb m c ⟨0, h⟩)

theorem row_first (c : Dev nD) (h : 0 < cfg0.N) :
    (outsAt0 m c 0 h).2.2 = k0_pay7 (xb m c ⟨0, h⟩) (yb m c ⟨0, h⟩) (k0_pay4 (F := Ideal)) := by
  rw [show outsAt0 m c 0 h = _ from outsAt0_A m c ⟨0, h⟩ rfl (fun h' => absurd h' (by decide : ¬(0 % 32 = 31)))]
  dsimp only
  exact Pieces.first_row (F := Ideal) c _ _ _ _ _ _ _ _ _ _ _ _ _ (xb m c ⟨0, h⟩) (yb m c ⟨0, h⟩)

/-- After a later point, over what the point before left. -/
theorem col_next (c : Dev nD) (t : Fin cfg0.N) (h0 : ¬t.val % 32 = 0) :
    (outsAt0 m c t.val t.isLt).2.1
      = k0_pay1 (k0_pay6 (xb m c t) (yb m c t)) (outsAt0 m c (t.val - 1) (Nat.lt_of_le_of_lt (Nat.sub_le _ _) t.isLt)).2.1 := by
  by_cases h1 : t.val % 32 = 31
  · rw [outsAt0_C m c t h0 h1]
    dsimp only
    exact Pieces.last_col (F := Ideal) c _ _ _ _ _ _ _ _ _ _ _ _ _ (xb m c t) (yb m c t) _ _
  · rw [outsAt0_B m c t h0 h1]
    dsimp only
    exact Pieces.mid_col (F := Ideal) c _ _ _ _ _ _ _ _ _ _ _ _ _ (xb m c t) (yb m c t) _ _

theorem row_next (c : Dev nD) (t : Fin cfg0.N) (h0 : ¬t.val % 32 = 0) :
    (outsAt0 m c t.val t.isLt).2.2
      = k0_pay7 (xb m c t) (yb m c t) (outsAt0 m c (t.val - 1) (Nat.lt_of_le_of_lt (Nat.sub_le _ _) t.isLt)).2.2 := by
  by_cases h1 : t.val % 32 = 31
  · rw [outsAt0_C m c t h0 h1]
    dsimp only
    exact Pieces.last_row (F := Ideal) c _ _ _ _ _ _ _ _ _ _ _ _ _ (xb m c t) (yb m c t) _ _
  · rw [outsAt0_B m c t h0 h1]
    dsimp only
    exact Pieces.mid_row (F := Ideal) c _ _ _ _ _ _ _ _ _ _ _ _ _ (xb m c t) (yb m c t) _ _

/-- The output entry after the last point, over what the point before left. -/
theorem out_last (c : Dev nD) (t : Fin cfg0.N) (h0 : ¬t.val % 32 = 0) (h1 : t.val % 32 = 31) :
    (outsAt0 m c t.val t.isLt).1
      = k0_pay2 (k0_pay1 (k0_pay6 (xb m c t) (yb m c t)) (outsAt0 m c (t.val - 1) (Nat.lt_of_le_of_lt (Nat.sub_le _ _) t.isLt)).2.1)
          (k0_pay7 (xb m c t) (yb m c t) (outsAt0 m c (t.val - 1) (Nat.lt_of_le_of_lt (Nat.sub_le _ _) t.isLt)).2.2) := by
  rw [outsAt0_C m c t h0 h1]
  dsimp only
  exact Pieces.last_out (F := Ideal) c _ _ _ _ _ _ _ _ _ _ _ _ _ (xb m c t) (yb m c t) _ _

/-! ## The induction over the points -/

/-- After point `n`: the column accumulator holds the column minima, and the row accumulator the maximum of the
    row minima, over the rows before `256 (n + 1)`. -/
theorem acc_after (c : Dev nD) : ∀ (n : ℕ) (h : n < cfg0.N),
    (∀ q : Fin 8192, (outsAt0 m c n h).2.1 (ix2 (0 : Fin 1) q) = colMin (table m c) (256 * (n + 1)) q)
    ∧ (outsAt0 m c n h).2.2 (ix2 (0 : Fin 1) (0 : Fin 1)) = rowMaxMin (table m c) (256 * (n + 1))
  | 0, h => by
    refine ⟨fun q => ?_, ?_⟩
    · rw [col_first m c h]
      exact step_col m c ⟨0, h⟩ (k0_pay3 (F := Ideal)) q ((reset_col_apply q).trans (colMin_zero _ q).symm)
    · rw [row_first m c h]
      exact step_row m c ⟨0, h⟩ (k0_pay4 (F := Ideal)) (reset_row_apply.trans (rowMaxMin_zero _).symm)
  | n + 1, h => by
    have ih := acc_after c n (Nat.lt_of_succ_lt h)
    have hN : cfg0.N = 32 := N_0
    have h0 : ¬(⟨n + 1, h⟩ : Fin cfg0.N).val % 32 = 0 := by dsimp only; omega
    refine ⟨fun q => ?_, ?_⟩
    · rw [show (outsAt0 m c (n + 1) h).2.1 = _ from col_next m c ⟨n + 1, h⟩ h0]
      exact step_col m c ⟨n + 1, h⟩ _ q (ih.1 q)
    · rw [show (outsAt0 m c (n + 1) h).2.2 = _ from row_next m c ⟨n + 1, h⟩ h0]
      exact step_row m c ⟨n + 1, h⟩ _ ih.2

/-- The output entry after the last point is the two-sided value of the distance table. -/
theorem out_value (c : Dev nD) (t : Fin cfg0.N) (h31 : t.val = 31) :
    (outsAt0 m c t.val t.isLt).1 (ix2 (0 : Fin 1) (0 : Fin 1)) = twoSided (table m c) := by
  have hpos : 1 ≤ t.val := by omega
  have ih := acc_after m c (t.val - 1) (Nat.lt_of_le_of_lt (Nat.sub_le _ _) t.isLt)
  rw [Nat.sub_add_cancel hpos] at ih
  rw [out_last m c t (by omega) (by omega), out_apply, step_row m c t _ ih.2]
  simp only [fun q => step_col m c t _ q (ih.1 q)]
  exact twoSided_of_all (table m c) (256 * (t.val + 1)) (by omega) _ fun b => iSup_le_iff

end Cert.KernelIdeal.Hausdorff

end
-- ==== Proof.KernelRun.lean ====
/-
  The kernel's run, read: the program's result is the two-sided value of the distance table.

  The output array has one entry and one block; only the last grid point writes the block back, and what it writes
  is the entry the body left there, so the array ends at that entry.  The line after the region reshapes the
  one-entry array to a scalar: the same entry.  The argument arrays are inputs of the region and end unchanged.
-/
import proofs.«109463_j65635690217853_2_alg».proof.Proof.Accumulate
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hausdorff

open Cert.KernelIdeal Cert.KernelIdeal.Gen Cert.Lib.TiledMinMax

variable (m : (ℓ : Loc nD τ sig) → Buf (Elt Ideal) ℓ) (ρ : Dev nD → PrngReg)

/-- The region's result array: its one entry is the two-sided value. -/
def result (c : Dev nD) : Buf (Elt Ideal) ((c : Thread nD τ).loc main_v0) := fun _ => twoSided (table m c)

/-- The program's result: a scalar, the same value. -/
def value (c : Dev nD) : Buf (Elt Ideal) ((c : Thread nD τ).loc main_v1) := fun _ => twoSided (table m c)

/-- The output's staging buffer has one entry: after the last point it is the two-sided value, at any index. -/
theorem out_const (c : Dev nD) (t : Fin cfg0.N) (h31 : t.val = 31) (y : S1x1.Idx) :
    (outsAt0 m c t.val t.isLt).1 y = twoSided (table m c) := by
  have ey : y = ix2 (0 : Fin 1) (0 : Fin 1) := funext fun a => by
    match a with
    | ⟨0, _⟩ => exact Fin.eq_zero _
    | ⟨1, _⟩ => exact Fin.eq_zero _
  rw [ey]
  exact out_value m c t h31

/-- The one write-back, at the last point, writes the result array's block. -/
theorem flushed_eq (c : Dev nD) (t : Fin cfg0.N) (hf : (cfg0.win 2).flush t = true) :
    (dats m 0 c).flushed 2 t = ((cfg0.win 2).blk t).view.read (Elt Ideal) (result m c) := by
  have hN : cfg0.N = 32 := N_0
  have h31 : t.val = 31 := by have := (flush0_2 t).mp hf; have := t.isLt; omega
  show (cfg0.win 2).cut (grid0.coords t) ((dats m 0 c).after 2 t) = _
  rw [after0_2]
  funext y
  rw [View.read_apply]
  exact out_const m c t h31 _

/-- The last grid point. -/
def tLast : Fin cfg0.N := ⟨31, by have hN : cfg0.N = 32 := N_0; omega⟩

/-- Window 2's one block starts at (0, 0) and has one entry, at every point. -/
theorem blk_o : ∀ t : Fin cfg0.N, win0_2.index t (0 : Fin 2) * win0_2.size (0 : Fin 2) = 0
      ∧ win0_2.xsize (grid0.coords t) (0 : Fin 2) = 1
      ∧ win0_2.index t (1 : Fin 2) * win0_2.size (1 : Fin 2) = 0
      ∧ win0_2.xsize (grid0.coords t) (1 : Fin 2) = 1 :=
  (by decide +kernel : ∀ t : Fin grid0.N, win0_2.index t (0 : Fin 2) * win0_2.size (0 : Fin 2) = 0
      ∧ win0_2.xsize (grid0.coords t) (0 : Fin 2) = 1
      ∧ win0_2.index t (1 : Fin 2) * win0_2.size (1 : Fin 2) = 0
      ∧ win0_2.xsize (grid0.coords t) (1 : Fin 2) = 1)

/-- So the result array ends holding the two-sided value: the last point's block covers it. -/
theorem final (c : Dev nD) : (dats m 0 c).arrAt 2 cfg0.N = result m c :=
  (dats m 0 c).arrAt_eq_of_cover 2 (result m c) (flushed_eq m c) fun i =>
    ⟨tLast, (flush0_2 tLast).mpr rfl, by
      show i ∈ ((View.whole main_v0).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index tLast 0 * win0_2.size 0 ≤ (i 0 : Nat)
          ∧ (i 0 : Nat) < win0_2.index tLast 0 * win0_2.size 0 + win0_2.xsize (grid0.coords tLast) 0
        rw [(blk_o tLast).1, (blk_o tLast).2.1]; omega
      | ⟨1, _⟩ =>
        show win0_2.index tLast 1 * win0_2.size 1 ≤ (i 1 : Nat)
          ∧ (i 1 : Nat) < win0_2.index tLast 1 * win0_2.size 1 + win0_2.xsize (grid0.coords tLast) 1
        rw [(blk_o tLast).2.2.1, (blk_o tLast).2.2.2]; omega⟩

/-- The line after the region: the one-entry array reshaped to a scalar is the same entry. -/
theorem tail_eq (c : Dev nD) :
    Pipeline.afterTail₀ cfgs (dats m) 0 (V0 m) [hostOps1] c main_v1 = value m c := by
  unfold Pipeline.afterTail₀
  show StableHlo.after hostOps1 _ (Proc.devRef .tc main_v1) = _
  after_results
  have e : Pipeline.withArrays (cfgs 0).spec c (V0 m c) (fun w => (dats m 0 c).arrAt w (cfgs 0).N)
      (Proc.tc.devRef main_v0) = result m c :=
    (Pipeline.withArrays_arr spec0 launch0.win.arr_inj c _ _ 2).trans (final m c)
  rw [e]
  rfl

/-- The run, read: the program's result at the two-sided value, the two argument arrays unchanged. -/
theorem run : θ_run defs (onTc (τ := τ) (main (F := Ideal))) ⟨m, fun _ => 0, ρ⟩ fun r => ∀ c : Dev nD,
      r.2.mem ((c : Thread nD τ).loc main_v1) = value m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v1 (Pipeline.mem_restRefs_of main_v1 rfl (fun w => by fin_cases w <;> decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Hausdorff

end
-- ==== Proof.RefValue.lean ====
/-
  The reference's result at the extended reals.

  Its distance table has entry (r, c) the root of (zero plus the sum over the three coordinates of the squared
  difference of `X`'s point r and `Y`'s point c).  Its result is the larger of: the maximum over rows of each
  row's minimum, and the maximum over columns of each column's minimum — each minimum started from the top and
  each maximum from the bottom of the extended reals, which changes neither.
-/
import proofs.«109463_j65635690217853_2_alg».proof.Proof.Gen.ReferenceIdeal.Read
import proofs.«109463_j65635690217853_2_alg».proof.Proof.LibTiledMinMax
import proofs.«109463_j65635690217853_2_alg».proof.Proof.LibReduceBounds
import Idealize.ShloMosaic.Lib.ValueIdx
import Idealize.ShloMosaic.PureOps.Ideal.Laws

noncomputable section

open Idealize.ShloMosaic Idealize.ShloMosaic.ValueIdx

namespace Cert.ReferenceIdeal.RefValue

open Cert.ReferenceIdeal Cert.ReferenceIdeal.Gen Cert.ReferenceIdeal.Read Cert.Lib.TiledMinMax Cert.Lib.ReduceBounds

/-- Point `p` of a table of points: its three coordinates. -/
abbrev point (x : S8192x3.Idx → EReal) (p : Fin 8192) : Fin 3 → EReal := fun k => x (ix2 p k)

/-- The reference's distance table. -/
def table (x0 x1 : S8192x3.Idx → EReal) : Fin 8192 → Fin 8192 → EReal :=
  fun r c => distSum (point x0 r) (point x1 c)

theorem ofBits_posInf : Ideal.ofBits .f32 0x7F800000#32 = ⊤ := by simp [Ideal.ofBits, Ideal.ieee]
theorem ofBits_negInf : Ideal.ofBits .f32 0xFF800000#32 = ⊥ := by simp [Ideal.ofBits, Ideal.ieee]

/-- Entry (r, c) of the reference's distance stage. -/
theorem dist_apply (x0 x1 : (⟨S8192x3, .f32⟩ : BufTy).Contents (Elt Ideal)) (r c : Fin 8192) :
    val_main_v7 (F := Ideal) x0 x1 (ix2 r c) = table x0 x1 r c := by
  have e0 : ∀ k : Fin 3, idx_main_v0 (idx_main_v2 (idx_main_v6 (ix2 r c) k)) = ix2 r k :=
    fun k => funext fun a => Fin.ext (by match a with | ⟨0, _⟩ => rfl | ⟨1, _⟩ => rfl)
  have e1 : ∀ k : Fin 3, idx_main_v1 (idx_main_v3 (idx_main_v6 (ix2 r c) k)) = ix2 c k :=
    fun k => funext fun a => Fin.ext (by match a with | ⟨0, _⟩ => rfl | ⟨1, _⟩ => rfl)
  rw [val_main_v7_apply, val_main_v6_apply]
  simp only [val_main_v5_apply, val_main_v4_apply, val_main_v2_apply, val_main_v3_apply, val_main_v0_apply,
    val_main_v1_apply, val_main_cst_apply, Ideal.hostUnary_sqrt_def, Ideal.mulf_def, Ideal.subf_def, Ideal.ofBits_def,
    Ideal.ofBits_zero_f32, e0, e1]
  rfl

/-- The minimum along row `r` of the distance stage. -/
theorem rowMin_apply (x0 x1 : (⟨S8192x3, .f32⟩ : BufTy).Contents (Elt Ideal)) (r : Fin 8192) :
    val_main_v8 (F := Ideal) x0 x1 (ix1 r) = ⨅ c : Fin 8192, table x0 x1 r c := by
  unfold val_main_v8
  refine eq_of_forall_le_iff fun a => ?_
  refine (le_hostRowMin_iff _ _ reducesTo_S8192x8192_S8192_d1 (by decide) h_S_ r a).trans ?_
  rw [val_main_cst_0_apply, Ideal.ofBits_def, ofBits_posInf, le_iInf_iff]
  simp only [le_top, true_and, dist_apply]

/-- The minimum down column `c` of the distance stage. -/
theorem colMin_apply (x0 x1 : (⟨S8192x3, .f32⟩ : BufTy).Contents (Elt Ideal)) (c : Fin 8192) :
    val_main_v10 (F := Ideal) x0 x1 (ix1 c) = ⨅ r : Fin 8192, table x0 x1 r c := by
  unfold val_main_v10
  refine eq_of_forall_le_iff fun a => ?_
  refine (le_hostColMin_iff _ _ reducesTo_S8192x8192_S8192_d0 (by decide) h_S_ c a).trans ?_
  rw [val_main_cst_2_apply, Ideal.ofBits_def, ofBits_posInf, le_iInf_iff]
  simp only [le_top, true_and, dist_apply]

/-- The reference's result: the two-sided value of its distance table. -/
theorem result_apply (x0 x1 : (⟨S8192x3, .f32⟩ : BufTy).Contents (Elt Ideal)) (i : S_.Idx) :
    val_main_v12 (F := Ideal) x0 x1 i = twoSided (table x0 x1) := by
  rw [val_main_v12_apply]
  show max (val_main_v9 (F := Ideal) x0 x1 i) (val_main_v11 (F := Ideal) x0 x1 i) = _
  unfold twoSided
  have h9 : val_main_v9 (F := Ideal) x0 x1 i = ⨆ r : Fin 8192, ⨅ c : Fin 8192, table x0 x1 r c := by
    unfold val_main_v9
    refine eq_of_forall_ge_iff fun b => ?_
    refine (hostReduce_max_total_le_iff _ _ reducesTo_S8192_S_d0 (fun b => b.elim0) h_S_ i b).trans ?_
    rw [val_main_cst_1_apply, Ideal.ofBits_def, ofBits_negInf, forall_idx1_le_iff, iSup_le_iff]
    simp only [bot_le, true_and, rowMin_apply]
  have h11 : val_main_v11 (F := Ideal) x0 x1 i = ⨆ c : Fin 8192, ⨅ r : Fin 8192, table x0 x1 r c := by
    unfold val_main_v11
    refine eq_of_forall_ge_iff fun b => ?_
    refine (hostReduce_max_total_le_iff _ _ reducesTo_S8192_S_d0 (fun b => b.elim0) h_S_ i b).trans ?_
    rw [val_main_cst_3_apply, Ideal.ofBits_def, ofBits_negInf, forall_idx1_le_iff, iSup_le_iff]
    simp only [bot_le, true_and, colMin_apply]
  rw [h9, h11]

end Cert.ReferenceIdeal.RefValue

end
-- ==== Proof.lean ====
/-
  The largest one-sided nearest-point distance between two sets of 8192 points with three coordinates each
  (the Hausdorff distance), computed two ways, and the two agree on the extended reals.

  Write `d r q` for the distance of `X`'s point `r` from `Y`'s point `q`: the root of the sum of the three squared
  coordinate differences.  Both programs end at
      max (sup_r inf_q d r q) (sup_q inf_r d r q).
  The reference forms the whole table, takes the row minima and their maximum, the column minima and their
  maximum, and the larger of the two.  The kernel reads `X` 256 rows at a time; it keeps the column minima so far
  and the largest row minimum so far, and after the last rows joins the latter with the largest column minimum.
  A minimum is the greatest lower bound and a maximum the least upper bound, so how the rows are grouped does not
  matter, and this holds at the infinities too: no finiteness of the inputs is used.  The kernel also clamps each
  sum of squares below at zero before the root, and starts no sum from zero; a square is nonnegative on the
  extended reals, so the clamp changes nothing, and zero plus a sum is the sum.

  The frames are the generated ones (the reference's is its generated run with the result dropped); the ideal
  pass rewrote nothing, so there is nothing to preserve.
-/
import proofs.«109463_j65635690217853_2_alg».proof.Defs
import proofs.«109463_j65635690217853_2_alg».proof.Proof.Gen.Kernel
import proofs.«109463_j65635690217853_2_alg».proof.Proof.Gen.Kernel.Frame
import proofs.«109463_j65635690217853_2_alg».proof.Proof.Gen.KernelIdeal
import proofs.«109463_j65635690217853_2_alg».proof.Proof.Gen.KernelIdeal.Frame
import proofs.«109463_j65635690217853_2_alg».proof.Proof.Gen.ReferenceIdeal
import proofs.«109463_j65635690217853_2_alg».proof.Proof.Gen.ReferenceIdeal.Run
import proofs.«109463_j65635690217853_2_alg».proof.Proof.Gen.ReferenceIdeal.Read
import proofs.«109463_j65635690217853_2_alg».proof.Proof.Gen.Pre_finite_inputs
import proofs.«109463_j65635690217853_2_alg».proof.Proof.KernelRun
import proofs.«109463_j65635690217853_2_alg».proof.Proof.RefValue
import Idealize.ShloMosaic.Adequacy
import Idealize.ShloMosaic.Init

noncomputable section

namespace Cert.Proof

open Idealize.ShloMosaic Idealize.ShloMosaic.TcCoe Idealize.SL.Sem Cert.Lib.TiledMinMax

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The two distance tables agree entry by entry: the clamp at zero is idle on a sum of squares. -/
theorem tables_agree (x y : Cert.KernelIdeal.S8192x3.Idx → EReal) (r q : Fin 8192) :
    distClamped (fun k => x (ValueIdx.ix2 r k)) (fun k => y (ValueIdx.ix2 q k))
      = distSum (fun k => x (ValueIdx.ix2 r k)) (fun k => y (ValueIdx.ix2 q k)) :=
  distClamped_eq_distSum _ _

/-- Both runs end at the two-sided value of the distance table of the same two arrays. -/
theorem algebraic : Cert.algebraic_KernelIdeal_ReferenceIdeal := by
  intro m ρ m' ρ' _ hagree
  refine ⟨fun c => Cert.KernelIdeal.Hausdorff.value m c, Cert.KernelIdeal.Hausdorff.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, (hagree c).1, (hagree c).2]
  funext i
  rw [Cert.ReferenceIdeal.RefValue.result_apply]
  show twoSided _ = twoSided (Cert.KernelIdeal.Hausdorff.table m c)
  refine congrArg twoSided (funext fun r => funext fun q => ?_)
  exact (tables_agree _ _ r q).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
